-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S16x64x768 : Shape := ⟨3, ![16, 64, 768]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S16x64x768 : S_.BroadcastsInDim S16x64x768 (![] : Fin 0 → Fin S16x64x768.rank)
  reducesTo_S16x64x768_S_d0_1_2 : S16x64x768.ReducesTo [0, 1, 2] S_

variable [Facts]

def fn {F : FTy → Type} [FloatOps F] (main_arg0 : FVec F S16x4096x768 .f32) (main_arg1 : FVec F S16x64x768 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S16x64x768 .f32 := Host.absf main_arg1
  let main_cst_0 : FVec F S_ .f32 := constant S_ .f32 0x7F800000#32
  let main_v5 : FVec F S16x64x768 .f32 := broadcastInDim S16x64x768 ![] bcast_S_S16x64x768 main_cst_0
  let main_v6 : IVec S16x64x768 1 := cmpf .olt main_v4 main_v5
  let main_c_1 : IVec S_ 1 := constantI S_ 1 1#1
  let main_v7 : IVec S_ 1 := (fun x v => Host.reduce IntOp.andi x v reducesTo_S16x64x768_S_d0_1_2 h_S_) main_v6 main_c_1
  let main_v8 : IVec S_ 1 := andi main_v3 main_v7
  main_v8
-- ==== Kernel.lean ====
abbrev S16x4096x768 : Shape := ⟨3, ![16, 4096, 768]⟩
abbrev S16x64x768 : Shape := ⟨3, ![16, 64, 768]⟩
abbrev S1x64x768 : Shape := ⟨3, ![1, 64, 768]⟩
abbrev S1x1024x768 : Shape := ⟨3, ![1, 1024, 768]⟩
abbrev S64x1 : Shape := ⟨2, ![64, 1]⟩
abbrev S64x768 : Shape := ⟨2, ![64, 768]⟩
abbrev S1024x768 : Shape := ⟨2, ![1024, 768]⟩
abbrev S64x1024 : Shape := ⟨2, ![64, 1024]⟩
abbrev S64 : Shape := ⟨1, ![64]⟩

abbrev nBuf : Space → Nat
  | .hbm => 3
  | .vmem => 9
  | .smem => 0
  | _ => 0

abbrev bufTy : (tb : Table) → Fin (tcTables nBuf tb) → BufTy
  | .hbm, ⟨0, _⟩ => ⟨S16x4096x768, .f32⟩
  | .hbm, ⟨1, _⟩ => ⟨S16x64x768, .f32⟩
  | .hbm, ⟨2, _⟩ => ⟨S16x64x768, .f32⟩
  | .local _ .vmem, ⟨0, _⟩ => ⟨S1x64x768, .f32⟩
  | .local _ .vmem, ⟨1, _⟩ => ⟨S1x64x768, .f32⟩
  | .local _ .vmem, ⟨2, _⟩ => ⟨S1x1024x768, .f32⟩
  | .local _ .vmem, ⟨3, _⟩ => ⟨S1x1024x768, .f32⟩
  | .local _ .vmem, ⟨4, _⟩ => ⟨S1x64x768, .f32⟩
  | .local _ .vmem, ⟨5, _⟩ => ⟨S1x64x768, .f32⟩
  | .local _ .vmem, ⟨6, _⟩ => ⟨S64x1, .f32⟩
  | .local _ .vmem, ⟨7, _⟩ => ⟨S64x1, .f32⟩
  | .local _ .vmem, ⟨8, _⟩ => ⟨S64x768, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_24 : BitVec 32 := 0#32
  let v44 : BitVec 1 := Scalar.cmpi .ne v43 c0_i32_24
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S64x1024_S64 : S64x1024.Reduces [1] S64
  shapeCasts_S64_S64x1 : S64.ShapeCasts S64x1
  broadcasts_S64x1_S64x1024 : S64x1.Broadcasts S64x1024
  broadcasts_S64x1_S64x768 : S64x1.Broadcasts S64x768
  shapeCasts_S64x768_S1x64x768 : S64x768.ShapeCasts S1x64x768
  dot_S64x768_S1024x768_S64x1024_1_1_0_0_n_n_wf : DotDims.WF S64x768 S1024x768 S64x1024 [1] [1] [0] [0] [] []
  dot_S64x1024_S1024x768_S64x768_1_0_0_1_n_n_wf : DotDims.WF S64x1024 S1024x768 S64x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x768.size a ≤ S16x64x768.size a
  hwx0_0 : ∀ i : grid0.Coords, EltTy.bits .f32 = 32 ∨ (Rect.block (s := S16x64x768) S1x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x4096x768.size a
  hwx0_1 : ∀ i : grid0.Coords, EltTy.bits .f32 = 32 ∨ (Rect.block (s := S16x4096x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x768.size a ≤ S16x64x768.size a
  hwx0_2 : ∀ i : grid0.Coords, EltTy.bits .f32 = 32 ∨ (Rect.block (s := S16x64x768) S1x64x768.size (cc0_transform_2 i) (hinb0_2 i)).WholeWords (EltTy.packing .f32)

variable [Facts₀]

def dot_S64x768_S1024x768_S64x1024_1_1_0_0_n_n : DotDims S64x768 S1024x768 S64x1024 where
  lhsContracting := [1]
  rhsContracting := [1]
  lhsNonContracting := [0]
  rhsNonContracting := [0]
  lhsBatch := []
  rhsBatch := []
  wf := dot_S64x768_S1024x768_S64x1024_1_1_0_0_n_n_wf
def dot_S64x1024_S1024x768_S64x768_1_0_0_1_n_n : DotDims S64x1024 S1024x768 S64x768 where
  lhsContracting := [1]
  rhsContracting := [0]
  lhsNonContracting := [0]
  rhsNonContracting := [1]
  lhsBatch := []
  rhsBatch := []
  wf := dot_S64x1024_S1024x768_S64x768_1_0_0_1_n_n_wf

abbrev win0_0 : Pipeline.Window sig grid0 :=
  Pipeline.Window.ofSpec (Memref.whole main_arg1) S1x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4096x768 : Shape := ⟨3, ![16, 4096, 768]⟩
abbrev S16x64x768 : Shape := ⟨3, ![16, 64, 768]⟩
abbrev S16x64x4096 : Shape := ⟨3, ![16, 64, 4096]⟩
abbrev S_ : Shape := ⟨0, ![]⟩
abbrev S16x64 : Shape := ⟨2, ![16, 64]⟩
abbrev S16x64x1 : Shape := ⟨3, ![16, 64, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x64x768, .f32⟩
  | .hbm, ⟨2, _⟩ => ⟨S16x64x4096, .f32⟩
  | .hbm, ⟨3, _⟩ => ⟨S_, .f32⟩
  | .hbm, ⟨4, _⟩ => ⟨S16x64x4096, .f32⟩
  | .hbm, ⟨5, _⟩ => ⟨S16x64x4096, .f32⟩
  | .hbm, ⟨6, _⟩ => ⟨S_, .f32⟩
  | .hbm, ⟨7, _⟩ => ⟨S16x64, .f32⟩
  | .hbm, ⟨8, _⟩ => ⟨S_, .f32⟩
  | .hbm, ⟨9, _⟩ => ⟨S16x64, .f32⟩
  | .hbm, ⟨10, _⟩ => ⟨S16x64, .f32⟩
  | .hbm, ⟨11, _⟩ => ⟨S16x64x1, .f32⟩
  | .hbm, ⟨12, _⟩ => ⟨S16x64x4096, .f32⟩
  | .hbm, ⟨13, _⟩ => ⟨S16x64x4096, .f32⟩
  | .hbm, ⟨14, _⟩ => ⟨S16x64x4096, .f32⟩
  | .hbm, ⟨15, _⟩ => ⟨S_, .f32⟩
  | .hbm, ⟨16, _⟩ => ⟨S16x64, .f32⟩
  | .hbm, ⟨17, _⟩ => ⟨S16x64x1, .f32⟩
  | .hbm, ⟨18, _⟩ => ⟨S16x64x4096, .f32⟩
  | .hbm, ⟨19, _⟩ => ⟨S16x64x4096, .f32⟩
  | .hbm, ⟨20, _⟩ => ⟨S16x64x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S16x64x4096 : S_.BroadcastsInDim S16x64x4096 (![] : Fin 0 → Fin S16x64x4096.rank)
  reducesTo_S16x64x4096_S16x64_d2 : S16x64x4096.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x4096_0_1_2 : S16x64x1.BroadcastsInDim S16x64x4096 (![0, 1, 2] : Fin 3 → Fin S16x64x4096.rank)
  dot_S16x64x768_S16x4096x768_S16x64x4096_2_2_1_1_0_0_wf : DotDims.WF S16x64x768 S16x4096x768 S16x64x4096 [2] [2] [1] [1] [0] [0]
  dot_S16x64x4096_S16x4096x768_S16x64x768_2_1_1_2_0_0_wf : DotDims.WF S16x64x4096 S16x4096x768 S16x64x768 [2] [1] [1] [2] [0] [0]

variable [Facts₀]

def dot_S16x64x768_S16x4096x768_S16x64x4096_2_2_1_1_0_0 : DotDims S16x64x768 S16x4096x768 S16x64x4096 where
  lhsContracting := [2]
  rhsContracting := [2]
  lhsNonContracting := [1]
  rhsNonContracting := [1]
  lhsBatch := [0]
  rhsBatch := [0]
  wf := dot_S16x64x768_S16x4096x768_S16x64x4096_2_2_1_1_0_0_wf
def dot_S16x64x4096_S16x4096x768_S16x64x768_2_1_1_2_0_0 : DotDims S16x64x4096 S16x4096x768 S16x64x768 where
  lhsContracting := [2]
  rhsContracting := [1]
  lhsNonContracting := [1]
  rhsNonContracting := [2]
  lhsBatch := [0]
  rhsBatch := [0]
  wf := dot_S16x64x4096_S16x4096x768_S16x64x768_2_1_1_2_0_0_wf

class Facts : Prop extends Facts₀ where

variable [Facts]
-- ==== Proof.Pieces.lean ====
import proofs.«154676_j15693810499605_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

/-!
  What one grid point leaves in the three carried buffers and in the output block, as pure functions of what the point
  loads. A point loads the query block, the token block and the three buffers (running maximum, running denominator,
  running numerator); it stores the new denominator, the new numerator and the new maximum, each a whole-buffer store,
  and at the last token block of a batch element also the quotient of the new numerator by the new denominator into the
  output block. At the first token block the three buffers are first overwritten by their initial values, which the
  later loads of the same point read back.
-/
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new running maximum, from the query block, the token block and the old maximum. -/
abbrev newMax (x0 : Vec F S1x64x768 .f32) (x1 : Vec F S1x1024x768 .f32) (ms : Vec F S64x1 .f32) : Vec F S64x1 .f32 :=
  k0_pay2 (k0_pay9 x0 x1 ms)
/-- The new running denominator, from the blocks, the old maximum and the old denominator. -/
abbrev newDen (x0 : Vec F S1x64x768 .f32) (x1 : Vec F S1x1024x768 .f32) (ms ls : Vec F S64x1 .f32) : Vec F S64x1 .f32 :=
  k0_pay12 x0 x1 ms ms ls
/-- The new running numerator, from the blocks, the old maximum and the old numerator. -/
abbrev newNum (x0 : Vec F S1x64x768 .f32) (x1 : Vec F S1x1024x768 .f32) (ms : Vec F S64x1 .f32) (acc : Vec F S64x768 .f32) :
    Vec F S64x768 .f32 :=
  k0_pay1 (k0_pay10 x0 x1 ms ms) (k0_pay13 x0 x1 ms) acc

/-! ## The first token block of a batch element: the buffers start from their initial values -/

theorem first_max (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : cond0_0 i) (hc1 : ¬cond0_1 i) (x0 : Vec F S1x64x768 .f32) (x1 : Vec F S1x1024x768 .f32) :
    sout0_A_0 c i a2 h2 a3 h3 a4 h4 a5 h5 a6 h6 a7 h7 hc0 hc1 x0 x1 = newMax x0 x1 k0_pay4 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S64x1) hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem first_den (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : cond0_0 i) (hc1 : ¬cond0_1 i) (x0 : Vec F S1x64x768 .f32) (x1 : Vec F S1x1024x768 .f32) :
    sout0_A_1 c i a2 h2 a3 h3 a4 h4 a5 h5 a6 h6 a7 h7 hc0 hc1 x0 x1 = newDen x0 x1 k0_pay4 k0_pay5 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S64x1) hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem first_num (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : cond0_0 i) (hc1 : ¬cond0_1 i) (x0 : Vec F S1x64x768 .f32) (x1 : Vec F S1x1024x768 .f32) :
    sout0_A_2 c i a2 h2 a3 h3 a4 h4 a5 h5 a6 h6 a7 h7 hc0 hc1 x0 x1 = newNum x0 x1 k0_pay4 k0_pay6 := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S64x768) hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

/-! ## A middle token block: the buffers continue from what the point before left -/

theorem mid_max (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : ¬cond0_1 i) (x0 : Vec F S1x64x768 .f32) (x1 : Vec F S1x1024x768 .f32) (xs0 xs1 : Vec F S64x1 .f32) (xs2 : Vec F S64x768 .f32) :
    sout0_B_0 c i a2 h2 a3 h3 a4 h4 a5 h5 a6 h6 a7 h7 hc0 hc1 x0 x1 xs0 xs1 xs2 = newMax x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem mid_den (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : ¬cond0_1 i) (x0 : Vec F S1x64x768 .f32) (x1 : Vec F S1x1024x768 .f32) (xs0 xs1 : Vec F S64x1 .f32) (xs2 : Vec F S64x768 .f32) :
    sout0_B_1 c i a2 h2 a3 h3 a4 h4 a5 h5 a6 h6 a7 h7 hc0 hc1 x0 x1 xs0 xs1 xs2 = newDen x0 x1 xs0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem mid_num (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : ¬cond0_1 i) (x0 : Vec F S1x64x768 .f32) (x1 : Vec F S1x1024x768 .f32) (xs0 xs1 : Vec F S64x1 .f32) (xs2 : Vec F S64x768 .f32) :
    sout0_B_2 c i a2 h2 a3 h3 a4 h4 a5 h5 a6 h6 a7 h7 hc0 hc1 x0 x1 xs0 xs1 xs2 = newNum x0 x1 xs0 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

/-! ## The last token block: the same, and the output block is the quotient -/

theorem last_max (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : cond0_1 i) (x0 : Vec F S1x64x768 .f32) (x1 : Vec F S1x1024x768 .f32) (xs0 xs1 : Vec F S64x1 .f32) (xs2 : Vec F S64x768 .f32) :
    sout0_C_0 c i a2 h2 a3 h3 a4 h4 a5 h5 a6 h6 a7 h7 hc0 hc1 x0 x1 xs0 xs1 xs2 = newMax x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem last_den (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : cond0_1 i) (x0 : Vec F S1x64x768 .f32) (x1 : Vec F S1x1024x768 .f32) (xs0 xs1 : Vec F S64x1 .f32) (xs2 : Vec F S64x768 .f32) :
    sout0_C_1 c i a2 h2 a3 h3 a4 h4 a5 h5 a6 h6 a7 h7 hc0 hc1 x0 x1 xs0 xs1 xs2 = newDen x0 x1 xs0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem last_num (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : cond0_1 i) (x0 : Vec F S1x64x768 .f32) (x1 : Vec F S1x1024x768 .f32) (xs0 xs1 : Vec F S64x1 .f32) (xs2 : Vec F S64x768 .f32) :
    sout0_C_2 c i a2 h2 a3 h3 a4 h4 a5 h5 a6 h6 a7 h7 hc0 hc1 x0 x1 xs0 xs1 xs2 = newNum x0 x1 xs0 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

theorem last_out (c : Dev nD) (i : grid0.Coords) (a2 : Memref sig .tc .vmem S1x64x768 .f32) (h2 : a2.IsWhole) (a3 : Memref sig .tc .vmem S1x1024x768 .f32) (h3 : a3.IsWhole) (a4 : Memref sig .tc .vmem S1x64x768 .f32) (h4 : a4.IsWhole) (a5 : Memref sig .tc .vmem S64x1 .f32) (h5 : a5.IsWhole) (a6 : Memref sig .tc .vmem S64x1 .f32) (h6 : a6.IsWhole) (a7 : Memref sig .tc .vmem S64x768 .f32) (h7 : a7.IsWhole) (hc0 : ¬cond0_0 i) (hc1 : cond0_1 i) (x0 : Vec F S1x64x768 .f32) (x1 : Vec F S1x1024x768 .f32) (xs0 xs1 : Vec F S64x1 .f32) (xs2 : Vec F S64x768 .f32) :
    out0_C_2 c i a2 h2 a3 h3 a4 h4 a5 h5 a6 h6 a7 h7 hc0 hc1 x0 x1 xs0 xs1 xs2 = k0_pay3 (newNum x0 x1 xs0 xs2) (newDen x0 x1 xs0 xs1) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz3]
  simp only [View.readAt_eq_ld, h2.read_unread, h3.read_unread, h5.read_unread, h6.read_unread, h7.read_unread,
    View.ld_unit_zero (S := S64x1) hz2, View.ld_unit_zero (S := S64x768) hz2, View.ld_unit_zero (S := S1x64x768) hz3,
    View.ld_unit_zero (S := S1x1024x768) hz3, View.readCov_unit_zero (S := S64x1) _ hz2,
    View.readCov_unit_zero (S := S64x768) _ hz2]

end Cert.KernelIdeal.Pieces
end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.LibOnlineSoftmax.lean ====
/-
  The online softmax recurrence on the extended reals, and the closed forms of its running state.

  One row of attention scores arrives in blocks `s 0, s 1, …` over a finite index type `J`, with one column of
  values `v 0, v 1, …` beside them. The recurrence keeps three numbers: the running maximum `m`, the running
  denominator `l` and the running numerator `a`; at block `n` it replaces them by

      m' = max m (sup_j s n j),   l' = e^(m - m') · l + Σ_j e^(s n j - m'),   a' = e^(m - m') · a + Σ_j e^(s n j - m') · v n j,

  starting from `(-∞, 0, 0)`. When every score and value is a real number, after `n` blocks

      m = the maximum of the scores seen,  l = Σ_{k<n} Σ_j e^(s k j - m),  a = Σ_{k<n} Σ_j e^(s k j - m) · v k j,

  because `e^(μ - μ') · e^(x - μ) = e^(x - μ')` for real `μ, μ', x` and a real factor distributes over a finite real sum
  (at the first block the factor `e^(-∞ - m')` multiplies `0`). Consequently `a / l` after the last block is the softmax
  of the whole row applied to the values: `Σ_n (e^(S n - M) / Σ_n' e^(S n' - M)) · X n`, the denominator being a positive real.
-/
import proofs.«154676_j15693810499605_2_alg».proof.Proof.LibRealLaw

noncomputable section

open scoped BigOperators

namespace Cert.Attn.Online

open Idealize.ShloMosaic Cert.Attn.RealLaw

/-- A fold of `max` from `-∞` is the supremum. -/
theorem fold_max_bot {ι : Type*} (t : Finset ι) (f : ι → EReal) : t.fold max ⊥ f = t.sup f := by
  classical
  induction t using Finset.induction_on with
  | empty => simp
  | insert a t ha ih => rw [Finset.fold_insert ha, Finset.sup_insert, ih]

variable {J : Type*} [Fintype J]

/-- The running maximum after `n` blocks. -/
def runM (s : ℕ → J → EReal) : ℕ → EReal
  | 0 => ⊥
  | n + 1 => max (runM s n) (Finset.univ.sup (s n))

/-- The running denominator after `n` blocks. -/
def runL (s : ℕ → J → EReal) : ℕ → EReal
  | 0 => 0
  | n + 1 => Ideal.exp (runM s n - runM s (n + 1)) * runL s n + ∑ j, Ideal.exp (s n j - runM s (n + 1))

/-- The running numerator after `n` blocks, for one column `v` of values. -/
def runA (s v : ℕ → J → EReal) : ℕ → EReal
  | 0 => 0
  | n + 1 => Ideal.exp (runM s n - runM s (n + 1)) * runA s v n + ∑ j, Ideal.exp (s n j - runM s (n + 1)) * v n j

/-- The running maximum is the supremum of the scores seen. -/
theorem runM_eq_sup (s : ℕ → J → EReal) (n : ℕ) :
    runM s n = (Finset.range n).sup fun k => Finset.univ.sup (s k) := by
  induction n with
  | zero => simp [runM]
  | succ n ih => rw [runM, ih, Finset.range_add_one, Finset.sup_insert, max_comm]

/-- Over real scores and a nonempty block the running maximum is a real number from the first block on. -/
theorem runM_real [Nonempty J] (s' : ℕ → J → ℝ) (n : ℕ) :
    ∃ μ : ℝ, runM (fun k j => ((s' k j : ℝ) : EReal)) (n + 1) = (μ : EReal) := by
  induction n with
  | zero =>
    obtain ⟨j, -, hj⟩ := Finset.exists_mem_eq_sup Finset.univ Finset.univ_nonempty (fun j : J => ((s' 0 j : ℝ) : EReal))
    exact ⟨s' 0 j, by rw [runM, runM, hj]; exact max_eq_right bot_le⟩
  | succ n ih =>
    obtain ⟨μ, hμ⟩ := ih
    obtain ⟨j, -, hj⟩ := Finset.exists_mem_eq_sup Finset.univ Finset.univ_nonempty (fun j : J => ((s' (n + 1) j : ℝ) : EReal))
    exact ⟨max μ (s' (n + 1) j), by rw [runM, hμ, hj]; exact (EReal.coe_strictMono.monotone.map_max).symm⟩

/-- The real rescaling law: `e^(μ - μ') · Σ e^(x - μ) · g = Σ e^(x - μ') · g`. -/
theorem rescale (R : Finset ℕ) (s' g : ℕ → J → ℝ) (μ μ' : ℝ) :
    Real.exp (μ - μ') * ∑ k ∈ R, ∑ j, Real.exp (s' k j - μ) * g k j = ∑ k ∈ R, ∑ j, Real.exp (s' k j - μ') * g k j := by
  rw [Finset.mul_sum]
  refine Finset.sum_congr rfl fun k _ => ?_
  rw [Finset.mul_sum]
  refine Finset.sum_congr rfl fun j _ => ?_
  rw [← mul_assoc, ← Real.exp_add]
  congr 2
  ring

/-- The running numerator in closed form. -/
theorem runA_closed [Nonempty J] (s' v' : ℕ → J → ℝ) (n : ℕ) :
    runA (fun k j => ((s' k j : ℝ) : EReal)) (fun k j => ((v' k j : ℝ) : EReal)) n
      = ∑ k ∈ Finset.range n, ∑ j, Ideal.exp (((s' k j : ℝ) : EReal) - runM (fun k j => ((s' k j : ℝ) : EReal)) n) * ((v' k j : ℝ) : EReal) := by
  induction n with
  | zero => simp [runA]
  | succ n ih =>
    rw [runA, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      exact congrArg _ (rescale _ s' v' μ μ')

/-- The running denominator in closed form. -/
theorem runL_closed [Nonempty J] (s' : ℕ → J → ℝ) (n : ℕ) :
    runL (fun k j => ((s' k j : ℝ) : EReal)) n
      = ∑ k ∈ Finset.range n, ∑ j, Ideal.exp (((s' k j : ℝ) : EReal) - runM (fun k j => ((s' k j : ℝ) : EReal)) n) := by
  induction n with
  | zero => simp [runL]
  | succ n ih =>
    rw [runL, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      refine congrArg _ ?_
      simpa using rescale (Finset.range (n + 1)) s' (fun _ _ => (1 : ℝ)) μ μ'

end Cert.Attn.Online

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.BlockStep.lean ====
/-
  One grid point's arithmetic read at an entry, on the extended reals.

  With `q` the query block [1, 64, 768] and `t` the token block [1, 1024, 768] of the point, the scores of query row `p`
  against the block are `s p j = (Σ_e q(0,p,e) · t(0,j,e)) · c`, `c` the scale literal. From the old running maximum `m`,
  denominator `l` and numerator `a` the point computes, at row `p` and column `d`,

      m' = max (m p) (sup_j s p j),   l' = e^(m p - m') · l p + Σ_j e^(s p j - m'),
      a' = e^(m p - m') · a p d + Σ_j e^(s p j - m') · t(0,j,d),

  and the output block's entry is `a' / l'`. A change of float format is the identity on the extended reals, a lane
  maximum from `-∞` is a supremum, a lane sum from zero a sum, and a matrix product into the zero accumulator a sum of
  products.
-/
import proofs.«154676_j15693810499605_2_alg».proof.Proof.Pieces
import proofs.«154676_j15693810499605_2_alg».proof.Proof.LibOnlineSoftmax
import proofs.«154676_j15693810499605_2_alg».proof.Proof.LibRowMax
import proofs.«154676_j15693810499605_2_alg».proof.Proof.LibKeepdims
import proofs.«154676_j15693810499605_2_alg».proof.Proof.LibTransposedMatmul
import proofs.«154676_j15693810499605_2_alg».proof.Proof.LibPlainMatmul
import proofs.«154676_j15693810499605_2_alg».proof.Proof.LibBlockLayout
import Idealize.ShloMosaic.Lib.ValueIdx
import Idealize.ShloMosaic.Lib.Pipeline.Value
import Idealize.ShloMosaic.PureOps.Ideal.Laws

noncomputable section

open scoped BigOperators

namespace Cert.KernelIdeal.BlockStep

open Cert.KernelIdeal Cert.KernelIdeal.Gen Cert.KernelIdeal.Pieces Idealize.ShloMosaic Idealize.ShloMosaic.ValueIdx
open Cert.Attn.Online (fold_max_bot)

theorem neg_inf : Ideal.ofBits .f32 0xFF800000#32 = ⊥ := by simp [Ideal.ofBits, Ideal.ieee]

/-- The scores of query row `p` against the token block. -/
def score (x0 : Vec Ideal S1x64x768 .f32) (x1 : Vec Ideal S1x1024x768 .f32) (p : Fin 64) (j : Fin 1024) : EReal :=
  (∑ e : Fin 768, (x0 (ix3 (0 : Fin 1) p e) : EReal) * (x1 (ix3 (0 : Fin 1) j e) : EReal)) * Ideal.ofBits .f32 0x3D13CD3A#32

/-- The new maximum of row `p`. -/
def rowMax (x0 : Vec Ideal S1x64x768 .f32) (x1 : Vec Ideal S1x1024x768 .f32) (ms : Vec Ideal S64x1 .f32) (p : Fin 64) : EReal :=
  max (ms (ix2 p (0 : Fin 1)) : EReal) (Finset.univ.sup fun j => score x0 x1 p j)

variable (x0 : Vec Ideal S1x64x768 .f32) (x1 : Vec Ideal S1x1024x768 .f32)

theorem score_at (p : Fin 64) (j : Fin 1024) : k0_pay8 (F := Ideal) x0 x1 (ix2 p j) = score x0 x1 p j := by
  unfold k0_pay8 k0_pay7 score
  show (FloatOps.matmul (F := Ideal) _ none _ _ _ (ix2 p j) : EReal) * Ideal.ofBits .f32 0x3D13CD3A#32 = _
  refine congrArg (· * Ideal.ofBits .f32 0x3D13CD3A#32) ?_
  refine (LibTransposedMatmul.matmul_zero_apply none _ _ p j).trans ?_
  refine Finset.sum_congr rfl fun e _ => ?_
  refine congrArg₂ (· * ·) ?_ ?_
  · exact LibBlockLayout.dropUnit_at x0 _ p e
  · exact LibBlockLayout.dropUnit_at x1 _ j e

theorem tokens_at (j : Fin 1024) (d : Fin 768) : k0_pay7 (F := Ideal) x1 (ix2 j d) = x1 (ix3 (0 : Fin 1) j d) := by
  unfold k0_pay7
  exact LibBlockLayout.dropUnit_at x1 _ j d

theorem max_at (ms : Vec Ideal S64x1 .f32) (p : Fin 64) (u : Fin 1) :
    k0_pay9 (F := Ideal) x0 x1 ms (ix2 p u) = rowMax x0 x1 ms p := by
  obtain rfl : u = 0 := Subsingleton.elim _ _
  unfold k0_pay9 rowMax
  show max (ms (ix2 p (0 : Fin 1)) : EReal) (shapeCast S64x1 (multiReduction .maximumf [1] S64 (k0_pay8 x0 x1) _ _ _ _) _ (ix2 p (0 : Fin 1))) = _
  refine congrArg (max (ms (ix2 p (0 : Fin 1)) : EReal)) ?_
  refine (LibKeepdims.shapeCast_a_a1_apply _ _ p 0).trans ?_
  refine (LibRowMax.multiReduction_maximumf_rows _ _ _ _ _ p).trans ?_
  rw [neg_inf, fold_max_bot]
  exact congrArg _ (funext fun j => score_at x0 x1 p j)

theorem newMax_at (ms : Vec Ideal S64x1 .f32) (p : Fin 64) (u : Fin 1) :
    newMax (F := Ideal) x0 x1 ms (ix2 p u) = rowMax x0 x1 ms p := by
  unfold newMax k0_pay2
  exact (congrFun (shapeCast_self _ _) _).trans (max_at x0 x1 ms p u)

theorem weights_at (ms : Vec Ideal S64x1 .f32) (p : Fin 64) (j : Fin 1024) :
    k0_pay11 (F := Ideal) x0 x1 ms (ix2 p j) = Ideal.exp (score x0 x1 p j - rowMax x0 x1 ms p) := by
  unfold k0_pay11
  show Ideal.exp ((k0_pay8 x0 x1 (ix2 p j) : EReal) - broadcastTo S64x1024 (k0_pay9 x0 x1 ms) _ (ix2 p j)) = _
  refine congrArg Ideal.exp (congrArg₂ (· - ·) (score_at x0 x1 p j) ?_)
  exact (LibKeepdims.broadcastTo_a1_ab_apply _ _ p j).trans (max_at x0 x1 ms p 0)

theorem factor_at (ms : Vec Ideal S64x1 .f32) (p : Fin 64) (u : Fin 1) :
    k0_pay10 (F := Ideal) x0 x1 ms ms (ix2 p u) = Ideal.exp ((ms (ix2 p (0 : Fin 1)) : EReal) - rowMax x0 x1 ms p) := by
  obtain rfl : u = 0 := Subsingleton.elim _ _
  unfold k0_pay10
  show Ideal.exp ((ms (ix2 p (0 : Fin 1)) : EReal) - k0_pay9 x0 x1 ms (ix2 p (0 : Fin 1))) = _
  rw [max_at]

theorem newDen_at (ms ls : Vec Ideal S64x1 .f32) (p : Fin 64) (u : Fin 1) :
    newDen (F := Ideal) x0 x1 ms ls (ix2 p u)
      = Ideal.exp ((ms (ix2 p (0 : Fin 1)) : EReal) - rowMax x0 x1 ms p) * (ls (ix2 p (0 : Fin 1)) : EReal)
        + ∑ j, Ideal.exp (score x0 x1 p j - rowMax x0 x1 ms p) := by
  obtain rfl : u = 0 := Subsingleton.elim _ _
  unfold newDen k0_pay12
  refine (congrFun (shapeCast_self _ _) _).trans ?_
  show (k0_pay10 x0 x1 ms ms (ix2 p (0 : Fin 1)) : EReal) * (ls (ix2 p (0 : Fin 1)) : EReal)
      + shapeCast S64x1 (multiReduction .add [1] S64 (k0_pay11 x0 x1 ms) _ _ _ _) _ (ix2 p (0 : Fin 1)) = _
  refine congrArg₂ (· + ·) (congrArg (· * (ls (ix2 p (0 : Fin 1)) : EReal)) (factor_at x0 x1 ms p 0)) ?_
  refine (LibKeepdims.shapeCast_a_a1_apply _ _ p 0).trans ?_
  refine (LibKeepdims.multiReduction_add_rows _ _ _ _ _ p).trans ?_
  exact Finset.sum_congr rfl fun j _ => weights_at x0 x1 ms p j

theorem newNum_at (ms : Vec Ideal S64x1 .f32) (acc : Vec Ideal S64x768 .f32) (p : Fin 64) (d : Fin 768) :
    newNum (F := Ideal) x0 x1 ms acc (ix2 p d)
      = Ideal.exp ((ms (ix2 p (0 : Fin 1)) : EReal) - rowMax x0 x1 ms p) * (acc (ix2 p d) : EReal)
        + ∑ j, Ideal.exp (score x0 x1 p j - rowMax x0 x1 ms p) * (x1 (ix3 (0 : Fin 1) j d) : EReal) := by
  unfold newNum k0_pay1
  refine (congrFun (shapeCast_self _ _) _).trans ?_
  show (broadcastTo S64x768 (k0_pay10 x0 x1 ms ms) _ (ix2 p d) : EReal) * (acc (ix2 p d) : EReal)
      + k0_pay13 x0 x1 ms (ix2 p d) = _
  refine congrArg₂ (· + ·) (congrArg (· * (acc (ix2 p d) : EReal)) ?_) ?_
  · exact (LibKeepdims.broadcastTo_a1_ab_apply _ _ p d).trans (factor_at x0 x1 ms p 0)
  · unfold k0_pay13
    refine (LibPlainMatmul.matmul_zero_apply none _ _ p d).trans ?_
    exact Finset.sum_congr rfl fun j _ => congrArg₂ (· * ·) (weights_at x0 x1 ms p j) (tokens_at x1 j d)

theorem quotient_at (num : Vec Ideal S64x768 .f32) (den : Vec Ideal S64x1 .f32) (p : Fin 64) (d : Fin 768) :
    k0_pay3 (F := Ideal) num den (ix3 (0 : Fin 1) p d) = Ideal.div (num (ix2 p d) : EReal) (den (ix2 p (0 : Fin 1)) : EReal) := by
  unfold k0_pay3
  refine (LibBlockLayout.addUnit_at _ _ p d).trans ?_
  show Ideal.div (num (ix2 p d) : EReal) (broadcastTo S64x768 den _ (ix2 p d)) = _
  exact congrArg (Ideal.div (num (ix2 p d) : EReal)) (LibKeepdims.broadcastTo_a1_ab_apply _ _ p d)

/-! ## The initial values -/

theorem initMax_at (p : Fin 64) (u : Fin 1) : (k0_pay4 (F := Ideal) (ix2 p u) : EReal) = ⊥ := by
  unfold k0_pay4
  exact (congrFun (shapeCast_self _ _) _).trans neg_inf

theorem initDen_at (p : Fin 64) (u : Fin 1) : (k0_pay5 (F := Ideal) (ix2 p u) : EReal) = 0 := by
  unfold k0_pay5
  exact (congrFun (shapeCast_self _ _) _).trans Ideal.ofBits_zero_f32

theorem initNum_at (p : Fin 64) (d : Fin 768) : (k0_pay6 (F := Ideal) (ix2 p d) : EReal) = 0 := by
  unfold k0_pay6
  exact (congrFun (shapeCast_self _ _) _).trans Ideal.ofBits_zero_f32

end Cert.KernelIdeal.BlockStep

end
-- ==== Proof.SoftmaxRow.lean ====
/-
  The recurrence run over four blocks of 1024 scores is the softmax over the whole row of 4096.

  Position `n` of the row is entry `j` of block `k` when `n = 1024 k + j`; a sum, or a supremum, over the 4096 positions
  is the same taken block by block. With the closed forms of the running state, the quotient of the numerator by the
  denominator after the fourth block is `(Σ_n e^(S n - μ) X n) / (Σ_n e^(S n - μ))` with `μ` the row maximum; the
  denominator is a sum of positive reals, so the quotient is the real product with its reciprocal, which distributes
  over the sum: `Σ_n (e^(S n - μ) / L) · X n`.
-/
import proofs.«154676_j15693810499605_2_alg».proof.Proof.LibOnlineSoftmax

noncomputable section

open scoped BigOperators

namespace Cert.Attn.Online

open Idealize.ShloMosaic Cert.Attn.RealLaw

/-- Entry `j` of block `k` as a position of the row (total in `k`; blocks `0 … 3` are the row's). -/
def flat (k : ℕ) (j : Fin 1024) : Fin 4096 := ⟨(k * 1024 + j.val) % 4096, Nat.mod_lt _ (by norm_num)⟩

theorem flat_val (k : ℕ) (hk : k < 4) (j : Fin 1024) : (flat k j).val = k * 1024 + j.val := by
  show (k * 1024 + j.val) % 4096 = _
  have := j.isLt
  omega

/-- A sum over the row, block by block. -/
theorem sum_flat {M : Type*} [AddCommMonoid M] (F : Fin 4096 → M) :
    ∑ k ∈ Finset.range 4, ∑ j : Fin 1024, F (flat k j) = ∑ n : Fin 4096, F n := by
  rw [Finset.sum_range, ← Fintype.sum_prod_type' (f := fun (k : Fin 4) (j : Fin 1024) => F (flat k.val j))]
  refine Fintype.sum_equiv finProdFinEquiv _ _ fun p => ?_
  refine congrArg F (Fin.ext ?_)
  show (p.1.val * 1024 + p.2.val) % 4096 = (finProdFinEquiv p).val
  rw [finProdFinEquiv_apply_val]
  have h1 := p.1.isLt
  have h2 := p.2.isLt
  omega

/-- A supremum over the row, block by block. -/
theorem sup_flat (G : Fin 4096 → EReal) :
    ((Finset.range 4).sup fun k => Finset.univ.sup fun j : Fin 1024 => G (flat k j)) = Finset.univ.sup G := by
  apply le_antisymm
  · exact Finset.sup_le fun k _ => Finset.sup_le fun j _ => Finset.le_sup (f := G) (Finset.mem_univ _)
  · refine Finset.sup_le fun n _ => ?_
    have hn := n.isLt
    have e : n = flat (n.val / 1024) ⟨n.val % 1024, Nat.mod_lt _ (by norm_num)⟩ :=
      Fin.ext (by show n.val = (n.val / 1024 * 1024 + n.val % 1024) % 4096; omega)
    refine le_trans (le_of_eq (congrArg G e)) ?_
    exact Finset.le_sup_of_le (Finset.mem_range.2 (by omega))
      (Finset.le_sup (f := fun j => G (flat (n.val / 1024) j)) (Finset.mem_univ _))

/-- After the fourth block the numerator over the denominator is the softmax of the row applied to the values. -/
theorem online_eq_softmax (S' X' : Fin 4096 → ℝ) :
    Ideal.div (runA (fun k j => ((S' (flat k j) : ℝ) : EReal)) (fun k j => ((X' (flat k j) : ℝ) : EReal)) 4)
        (runL (fun k j => ((S' (flat k j) : ℝ) : EReal)) 4)
      = ∑ n, Ideal.div
            (Ideal.exp (((S' n : ℝ) : EReal) - max ⊥ (Finset.univ.sup fun n => ((S' n : ℝ) : EReal))))
            (0 + ∑ n', Ideal.exp (((S' n' : ℝ) : EReal) - max ⊥ (Finset.univ.sup fun n => ((S' n : ℝ) : EReal))))
          * ((X' n : ℝ) : EReal) := by
  obtain ⟨μ, hμ⟩ := runM_real (fun k j => S' (flat k j)) 3
  have hMr : max ⊥ (Finset.univ.sup fun n => ((S' n : ℝ) : EReal)) = (μ : EReal) := by
    rw [max_eq_right bot_le, ← sup_flat, ← hμ, runM_eq_sup]
  rw [runA_closed (fun k j => S' (flat k j)) (fun k j => X' (flat k j)) 4, runL_closed (fun k j => S' (flat k j)) 4, hμ, hMr,
    sum_flat (fun n => Ideal.exp (((S' n : ℝ) : EReal) - (μ : EReal)) * ((X' n : ℝ) : EReal)),
    sum_flat (fun n => Ideal.exp (((S' n : ℝ) : EReal) - (μ : EReal))), zero_add]
  have hL : (∑ n, Real.exp (S' n - μ)) ≠ 0 :=
    (Finset.sum_pos (fun n _ => Real.exp_pos _) Finset.univ_nonempty).ne'
  simp only [← EReal.coe_sub, Ideal.exp_coe, ← EReal.coe_mul, ← coe_sum, Ideal.div_coe hL]
  refine congrArg _ ?_
  rw [Finset.sum_mul]
  exact Finset.sum_congr rfl fun n _ => by ring

end Cert.Attn.Online

end
-- ==== Proof.RunningState.lean ====
/-
  The three carried buffers after every grid point, entry by entry.

  The grid has 64 points: point `n` works on batch element `n / 4` and on token block `n % 4` of its 4096 tokens. The query
  block of the point is the batch element's query matrix, the token block rows `1024 (n % 4) … 1024 (n % 4) + 1023` of its
  token matrix. After point `n`, row `p` of the running maximum and of the running denominator and entry `(p, d)` of the
  running numerator are the online softmax recurrence run over the first `n % 4 + 1` blocks of the scores of query row `p`
  against the batch element's tokens, with column `d` of the tokens as the values: by induction on the point, the first
  block of a batch element starting the recurrence from `(-∞, 0, 0)`.
-/
import proofs.«154676_j15693810499605_2_alg».proof.Proof.BlockStep
import proofs.«154676_j15693810499605_2_alg».proof.Proof.SoftmaxRow

noncomputable section

open scoped BigOperators

namespace Cert.KernelIdeal.Attn

open Cert.KernelIdeal Cert.KernelIdeal.Gen Cert.KernelIdeal.Pieces Cert.KernelIdeal.BlockStep
open Idealize.ShloMosaic Idealize.ShloMosaic.TcCoe Idealize.SL.Sem Idealize.ShloMosaic.ValueIdx
open Cert.Attn.Online

variable (m : (ℓ : Loc nD τ sig) → Buf (Elt Ideal) ℓ) (c : Dev nD)

/-- The batch element point `n` works on (total in `n`). -/
def bat (n : ℕ) : Fin 16 := ⟨(n / 4) % 16, Nat.mod_lt _ (by norm_num)⟩

/-- The query array [16, 64, 768] as launched. -/
abbrev Qm : S16x64x768.Idx → EReal := m ((c : Thread nD τ).loc main_arg1)
/-- The token array [16, 4096, 768] as launched. -/
abbrev Xm : S16x4096x768.Idx → EReal := m ((c : Thread nD τ).loc main_arg0)

/-- The scores of query row `p` of batch element `b`, block by block. -/
def sb (b : Fin 16) (p : Fin 64) : ℕ → Fin 1024 → EReal := fun k j =>
  (∑ e : Fin 768, Qm m c (ix3 b p e) * Xm m c (ix3 b (flat k j) e)) * Ideal.ofBits .f32 0x3D13CD3A#32

/-- Column `d` of the tokens of batch element `b`, block by block. -/
def vb (b : Fin 16) (d : Fin 768) : ℕ → Fin 1024 → EReal := fun k j => Xm m c (ix3 b (flat k j) d)

/-- The block indices of the three windows at every grid point. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The query block of point `t` is the query matrix of its batch element. -/
theorem q_block (t : Fin cfg0.N) (p : Fin 64) (e : Fin 768) :
    ((iblk m c 0 t : Vec Ideal S1x64x768 .f32) (ix3 (0 : Fin 1) p e) : EReal)
      = Qm m c (ix3 (bat t.val) p e) := by
  obtain ⟨e0, e1, e2, -⟩ := idx_facts t
  have hN : t.val < 64 := lt_of_lt_of_eq t.isLt N_0
  show V m c main_arg1 (((cfg0.win 0).blk t).view.emb (ix3 (0 : Fin 1) p e)) = _
  refine congrArg (m ((c : Thread nD τ).loc main_arg1)) (funext fun a => Fin.ext ?_)
  match a with
  | ⟨0, _⟩ => show win0_0.index t (0 : Fin 3) * 1 + 1 * 0 = (t.val / 4) % 16; omega
  | ⟨1, _⟩ => show win0_0.index t (1 : Fin 3) * 64 + 1 * p.val = p.val; omega
  | ⟨2, _⟩ => show win0_0.index t (2 : Fin 3) * 768 + 1 * e.val = e.val; omega

/-- The token block of point `t` is block `t % 4` of the token matrix of its batch element. -/
theorem t_block (t : Fin cfg0.N) (j : Fin 1024) (e : Fin 768) :
    ((iblk m c 1 t : Vec Ideal S1x1024x768 .f32) (ix3 (0 : Fin 1) j e) : EReal)
      = Xm m c (ix3 (bat t.val) (flat (t.val % 4) j) e) := by
  obtain ⟨-, -, -, e0, e1, e2, -⟩ := idx_facts t
  have hN : t.val < 64 := lt_of_lt_of_eq t.isLt N_0
  have hf := flat_val (t.val % 4) (Nat.mod_lt _ (by norm_num)) j
  show V m c main_arg0 (((cfg0.win 1).blk t).view.emb (ix3 (0 : Fin 1) j e)) = _
  refine congrArg (m ((c : Thread nD τ).loc main_arg0)) (funext fun a => Fin.ext ?_)
  match a with
  | ⟨0, _⟩ => show win0_1.index t (0 : Fin 3) * 1 + 1 * 0 = (t.val / 4) % 16; omega
  | ⟨1, _⟩ => show win0_1.index t (1 : Fin 3) * 1024 + 1 * j.val = (flat (t.val % 4) j).val; omega
  | ⟨2, _⟩ => show win0_1.index t (2 : Fin 3) * 768 + 1 * e.val = e.val; omega

/-- The scores a point computes are its batch element's, of its block. -/
theorem score_eq (t : Fin cfg0.N) (p : Fin 64) (j : Fin 1024) :
    score (iblk m c 0 t) (iblk m c 1 t) p j = sb m c (bat t.val) p (t.val % 4) j := by
  unfold score sb
  refine congrArg (· * Ideal.ofBits .f32 0x3D13CD3A#32) (Finset.sum_congr rfl fun e _ => ?_)
  exact congrArg₂ (· * ·) (q_block m c t p e) (t_block m c t j e)

/-- One point advances the recurrence by one block, at every entry. -/
theorem step (x0 : Vec Ideal S1x64x768 .f32) (x1 : Vec Ideal S1x1024x768 .f32) (ms ls : Vec Ideal S64x1 .f32)
    (acc : Vec Ideal S64x768 .f32) (s v : ℕ → Fin 1024 → EReal) (k : ℕ) (p : Fin 64) (d : Fin 768)
    (hs : ∀ j, score x0 x1 p j = s k j) (hv : ∀ j, (x1 (ix3 (0 : Fin 1) j d) : EReal) = v k j)
    (hm : (ms (ix2 p (0 : Fin 1)) : EReal) = runM s k) (hl : (ls (ix2 p (0 : Fin 1)) : EReal) = runL s k)
    (ha : (acc (ix2 p d) : EReal) = runA s v k) :
    (∀ u : Fin 1, (newMax x0 x1 ms (ix2 p u) : EReal) = runM s (k + 1))
    ∧ (∀ u : Fin 1, (newDen x0 x1 ms ls (ix2 p u) : EReal) = runL s (k + 1))
    ∧ (newNum x0 x1 ms acc (ix2 p d) : EReal) = runA s v (k + 1) := by
  have hM : rowMax x0 x1 ms p = runM s (k + 1) := by
    unfold rowMax
    rw [hm]
    simp only [hs]
    rfl
  refine ⟨fun u => (newMax_at x0 x1 ms p u).trans hM, fun u => ?_, ?_⟩
  · rw [newDen_at, hM, hm, hl]
    simp only [hs]
    rfl
  · rw [newNum_at, hM, hm, ha]
    simp only [hs, hv]
    rfl

/-! ## What each kind of point leaves, as vectors

  What the buffers hold after a point is given, per kind of point, by the stores that kind of point performs; the lemmas
  below read each buffer off and express it by the point's arithmetic. -/

theorem rawA_max (t : Fin cfg0.N) (h0 : t.val % 4 = 0) (h1 : ¬t.val % 4 = 3) :
    (outsAt0 m c t.val t.isLt).2.1 = sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) := by
  rw [outsAt0_A m c t h0 h1]

theorem rawA_den (t : Fin cfg0.N) (h0 : t.val % 4 = 0) (h1 : ¬t.val % 4 = 3) :
    (outsAt0 m c t.val t.isLt).2.2.1 = sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) := by
  rw [outsAt0_A m c t h0 h1]

theorem rawA_num (t : Fin cfg0.N) (h0 : t.val % 4 = 0) (h1 : ¬t.val % 4 = 3) :
    (outsAt0 m c t.val t.isLt).2.2.2 = sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) := by
  rw [outsAt0_A m c t h0 h1]

theorem rawB_max (t : Fin cfg0.N) (h0 : ¬t.val % 4 = 0) (h1 : ¬t.val % 4 = 3) :
    (outsAt0 m c t.val t.isLt).2.1 = sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]

theorem rawB_den (t : Fin cfg0.N) (h0 : ¬t.val % 4 = 0) (h1 : ¬t.val % 4 = 3) :
    (outsAt0 m c t.val t.isLt).2.2.1 = sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]

theorem rawB_num (t : Fin cfg0.N) (h0 : ¬t.val % 4 = 0) (h1 : ¬t.val % 4 = 3) :
    (outsAt0 m c t.val t.isLt).2.2.2 = sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]

theorem rawC_max (t : Fin cfg0.N) (h0 : ¬t.val % 4 = 0) (h1 : t.val % 4 = 3) :
    (outsAt0 m c t.val t.isLt).2.1 = sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]

theorem rawC_den (t : Fin cfg0.N) (h0 : ¬t.val % 4 = 0) (h1 : t.val % 4 = 3) :
    (outsAt0 m c t.val t.isLt).2.2.1 = sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]

theorem rawC_num (t : Fin cfg0.N) (h0 : ¬t.val % 4 = 0) (h1 : t.val % 4 = 3) :
    (outsAt0 m c t.val t.isLt).2.2.2 = sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]

theorem rawC_out (t : Fin cfg0.N) (h0 : ¬t.val % 4 = 0) (h1 : t.val % 4 = 3) :
    (outsAt0 m c t.val t.isLt).1 = out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]

theorem stateA (t : Fin cfg0.N) (h0 : t.val % 4 = 0) (h1 : ¬t.val % 4 = 3) :
    (outsAt0 m c t.val t.isLt).2.1 = newMax (iblk m c 0 t) (iblk m c 1 t) (k0_pay4 (F := Ideal))
    ∧ (outsAt0 m c t.val t.isLt).2.2.1 = newDen (iblk m c 0 t) (iblk m c 1 t) (k0_pay4 (F := Ideal)) (k0_pay5 (F := Ideal))
    ∧ (outsAt0 m c t.val t.isLt).2.2.2 = newNum (iblk m c 0 t) (iblk m c 1 t) (k0_pay4 (F := Ideal)) (k0_pay6 (F := Ideal)) :=
  ⟨(rawA_max m c t h0 h1).trans (first_max (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)),
   (rawA_den m c t h0 h1).trans (first_den (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)),
   (rawA_num m c t h0 h1).trans (first_num (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))⟩

theorem stateB (t : Fin cfg0.N) (h0 : ¬t.val % 4 = 0) (h1 : ¬t.val % 4 = 3) :
    (outsAt0 m c t.val t.isLt).2.1 = newMax (iblk m c 0 t) (iblk m c 1 t) (outsAt0 m c (t.val - 1) (Nat.lt_of_le_of_lt (Nat.sub_le _ _) t.isLt)).2.1
    ∧ (outsAt0 m c t.val t.isLt).2.2.1 = newDen (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = newNum (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2 :=
  ⟨(rawB_max m c t h0 h1).trans (mid_max (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2),
   (rawB_den m c t h0 h1).trans (mid_den (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2),
   (rawB_num m c t h0 h1).trans (mid_num (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)⟩

theorem stateC (t : Fin cfg0.N) (h0 : ¬t.val % 4 = 0) (h1 : t.val % 4 = 3) :
    (outsAt0 m c t.val t.isLt).2.1 = newMax (iblk m c 0 t) (iblk m c 1 t) (outsAt0 m c (t.val - 1) (Nat.lt_of_le_of_lt (Nat.sub_le _ _) t.isLt)).2.1
    ∧ (outsAt0 m c t.val t.isLt).2.2.1 = newDen (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = newNum (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2
    ∧ (outsAt0 m c t.val t.isLt).1 = k0_pay3 (newNum (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2)
        (newDen (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) :=
  ⟨(rawC_max m c t h0 h1).trans (last_max (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2),
   (rawC_den m c t h0 h1).trans (last_den (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2),
   (rawC_num m c t h0 h1).trans (last_num (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2),
   (rawC_out m c t h0 h1).trans (last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)⟩

end Cert.KernelIdeal.Attn

end
-- ==== Proof.Invariant.lean ====
/-
  The recurrence, point by point.

  By induction on the point: after point `t`, the three carried buffers hold, at row `p` (and column `d`), the online
  softmax recurrence of batch element `t / 4` run over its first `t % 4 + 1` token blocks. A point whose token block is the
  first of its batch element starts from the initial values; any other point continues from what the point before left,
  which belongs to the same batch element and stands one block earlier. At the last token block of a batch element the
  output block holds, at `(0, p, d)`, the recurrence's numerator over its denominator after four blocks.
-/
import proofs.«154676_j15693810499605_2_alg».proof.Proof.RunningState

noncomputable section

open scoped BigOperators

namespace Cert.KernelIdeal.Attn

open Cert.KernelIdeal Cert.KernelIdeal.Gen Cert.KernelIdeal.Pieces Cert.KernelIdeal.BlockStep
open Idealize.ShloMosaic Idealize.ShloMosaic.TcCoe Idealize.SL.Sem Idealize.ShloMosaic.ValueIdx
open Cert.Attn.Online

variable (m : (ℓ : Loc nD τ sig) → Buf (Elt Ideal) ℓ) (c : Dev nD)

/-- What the three buffers hold after point `t`. -/
abbrev Inv (t : Fin cfg0.N) : Prop := ∀ p : Fin 64,
    (∀ u : Fin 1, ((outsAt0 m c t.val t.isLt).2.1 (ix2 p u) : EReal) = runM (sb m c (bat t.val) p) (t.val % 4 + 1))
    ∧ (∀ u : Fin 1, ((outsAt0 m c t.val t.isLt).2.2.1 (ix2 p u) : EReal) = runL (sb m c (bat t.val) p) (t.val % 4 + 1))
    ∧ (∀ d : Fin 768, ((outsAt0 m c t.val t.isLt).2.2.2 (ix2 p d) : EReal)
        = runA (sb m c (bat t.val) p) (vb m c (bat t.val) d) (t.val % 4 + 1))

/-- A point advances every row of its batch element's recurrence by its token block. -/
theorem point_step (t : Fin cfg0.N) (ms ls : Vec Ideal S64x1 .f32) (acc : Vec Ideal S64x768 .f32)
    (hm : ∀ p : Fin 64, (ms (ix2 p (0 : Fin 1)) : EReal) = runM (sb m c (bat t.val) p) (t.val % 4))
    (hl : ∀ p : Fin 64, (ls (ix2 p (0 : Fin 1)) : EReal) = runL (sb m c (bat t.val) p) (t.val % 4))
    (ha : ∀ (p : Fin 64) (d : Fin 768), (acc (ix2 p d) : EReal)
        = runA (sb m c (bat t.val) p) (vb m c (bat t.val) d) (t.val % 4))
    (p : Fin 64) :
    (∀ u : Fin 1, (newMax (iblk m c 0 t) (iblk m c 1 t) ms (ix2 p u) : EReal) = runM (sb m c (bat t.val) p) (t.val % 4 + 1))
    ∧ (∀ u : Fin 1, (newDen (iblk m c 0 t) (iblk m c 1 t) ms ls (ix2 p u) : EReal)
        = runL (sb m c (bat t.val) p) (t.val % 4 + 1))
    ∧ (∀ d : Fin 768, (newNum (iblk m c 0 t) (iblk m c 1 t) ms acc (ix2 p d) : EReal)
        = runA (sb m c (bat t.val) p) (vb m c (bat t.val) d) (t.val % 4 + 1)) := by
  have st := fun d : Fin 768 => step (iblk m c 0 t) (iblk m c 1 t) ms ls acc (sb m c (bat t.val) p) (vb m c (bat t.val) d)
    (t.val % 4) p d (fun j => score_eq m c t p j) (fun j => t_block m c t j d) (hm p) (hl p) (ha p d)
  exact ⟨(st 0).1, (st 0).2.1, fun d => (st d).2.2⟩

theorem inv : ∀ (n : ℕ) (h : n < cfg0.N), Inv m c ⟨n, h⟩
  | 0, h => by
    intro p
    obtain ⟨e1, e2, e3⟩ := stateA m c ⟨0, h⟩ (Nat.zero_mod 4) (by dsimp only; omega)
    rw [e1, e2, e3]
    exact point_step m c ⟨0, h⟩ (k0_pay4 (F := Ideal)) (k0_pay5 (F := Ideal)) (k0_pay6 (F := Ideal)) (fun p => initMax_at p 0) (fun p => initDen_at p 0)
      (fun p d => initNum_at p d) p
  | n + 1, h => by
    have ih := inv n (Nat.lt_of_succ_lt h)
    have hN : n + 1 < 64 := lt_of_lt_of_eq h N_0
    intro p
    by_cases h0 : (n + 1) % 4 = 0
    · obtain ⟨e1, e2, e3⟩ := stateA m c ⟨n + 1, h⟩ h0 (by dsimp only; omega)
      rw [e1, e2, e3]
      refine point_step m c ⟨n + 1, h⟩ (k0_pay4 (F := Ideal)) (k0_pay5 (F := Ideal)) (k0_pay6 (F := Ideal)) (fun p => ?_) (fun p => ?_) (fun p d => ?_) p
      · show (k0_pay4 (F := Ideal) (ix2 p (0 : Fin 1)) : EReal) = runM (sb m c (bat (n + 1)) p) ((n + 1) % 4)
        rw [h0]; exact initMax_at p 0
      · show (k0_pay5 (F := Ideal) (ix2 p (0 : Fin 1)) : EReal) = runL (sb m c (bat (n + 1)) p) ((n + 1) % 4)
        rw [h0]; exact initDen_at p 0
      · show (k0_pay6 (F := Ideal) (ix2 p d) : EReal) = runA (sb m c (bat (n + 1)) p) (vb m c (bat (n + 1)) d) ((n + 1) % 4)
        rw [h0]; exact initNum_at p d
    · have hb : bat (n + 1) = bat n := Fin.ext (by show (n + 1) / 4 % 16 = n / 4 % 16; omega)
      have hk : (n + 1) % 4 = n % 4 + 1 := by omega
      have hm : ∀ p : Fin 64, ((outsAt0 m c ((⟨n + 1, h⟩ : Fin cfg0.N).val - 1) (Nat.lt_of_le_of_lt (Nat.sub_le _ _) (⟨n + 1, h⟩ : Fin cfg0.N).isLt)).2.1 (ix2 p (0 : Fin 1)) : EReal)
          = runM (sb m c (bat (⟨n + 1, h⟩ : Fin cfg0.N).val) p) ((⟨n + 1, h⟩ : Fin cfg0.N).val % 4) := fun p => by
        show ((outsAt0 m c n _).2.1 (ix2 p (0 : Fin 1)) : EReal) = runM (sb m c (bat (n + 1)) p) ((n + 1) % 4)
        rw [hb, hk]; exact (ih p).1 0
      have hl : ∀ p : Fin 64, ((outsAt0 m c ((⟨n + 1, h⟩ : Fin cfg0.N).val - 1) (Nat.lt_of_le_of_lt (Nat.sub_le _ _) (⟨n + 1, h⟩ : Fin cfg0.N).isLt)).2.2.1 (ix2 p (0 : Fin 1)) : EReal)
          = runL (sb m c (bat (⟨n + 1, h⟩ : Fin cfg0.N).val) p) ((⟨n + 1, h⟩ : Fin cfg0.N).val % 4) := fun p => by
        show ((outsAt0 m c n _).2.2.1 (ix2 p (0 : Fin 1)) : EReal) = runL (sb m c (bat (n + 1)) p) ((n + 1) % 4)
        rw [hb, hk]; exact (ih p).2.1 0
      have ha : ∀ (p : Fin 64) (d : Fin 768), ((outsAt0 m c ((⟨n + 1, h⟩ : Fin cfg0.N).val - 1) (Nat.lt_of_le_of_lt (Nat.sub_le _ _) (⟨n + 1, h⟩ : Fin cfg0.N).isLt)).2.2.2 (ix2 p d) : EReal)
          = runA (sb m c (bat (⟨n + 1, h⟩ : Fin cfg0.N).val) p) (vb m c (bat (⟨n + 1, h⟩ : Fin cfg0.N).val) d) ((⟨n + 1, h⟩ : Fin cfg0.N).val % 4) := fun p d => by
        show ((outsAt0 m c n _).2.2.2 (ix2 p d) : EReal) = runA (sb m c (bat (n + 1)) p) (vb m c (bat (n + 1)) d) ((n + 1) % 4)
        rw [hb, hk]; exact (ih p).2.2 d
      by_cases h1 : (n + 1) % 4 = 3
      · obtain ⟨e1, e2, e3, -⟩ := stateC m c ⟨n + 1, h⟩ h0 h1
        rw [e1, e2, e3]
        exact point_step m c ⟨n + 1, h⟩ (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2 hm hl ha p
      · obtain ⟨e1, e2, e3⟩ := stateB m c ⟨n + 1, h⟩ h0 h1
        rw [e1, e2, e3]
        exact point_step m c ⟨n + 1, h⟩ (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2 hm hl ha p

/-- The recurrence's quotient after the four blocks of batch element `b`, row `p`, column `d`. -/
def attn (b : Fin 16) (p : Fin 64) (d : Fin 768) : EReal :=
  Ideal.div (runA (sb m c b p) (vb m c b d) 4) (runL (sb m c b p) 4)

/-- At the last token block of a batch element the output block holds the quotient. -/
theorem out_at (t : Fin cfg0.N) (h1 : t.val % 4 = 3) (p : Fin 64) (d : Fin 768) :
    ((outsAt0 m c t.val t.isLt).1 (ix3 (0 : Fin 1) p d) : EReal) = attn m c (bat t.val) p d := by
  obtain ⟨e1, e2, e3, e4⟩ := stateC m c t (by omega) h1
  have hi := inv m c t.val t.isLt p
  rw [e4, quotient_at, ← e3, ← e2]
  have h3 : t.val % 4 + 1 = 4 := by omega
  rw [(hi).2.2 d, (hi).2.1 0, h3]
  rfl

end Cert.KernelIdeal.Attn

end
-- ==== Proof.ResultArray.lean ====
/-
  The kernel's result array.

  Only the last token block of a batch element writes its output block back, and that block is the batch element's
  [64, 768] slab of the result array: the sixteen write-backs tile the array, so after the run entry `(b, p, d)` holds the
  recurrence's quotient after four blocks for batch element `b`, query row `p`, column `d`.
-/
import proofs.«154676_j15693810499605_2_alg».proof.Proof.Invariant
import proofs.«154676_j15693810499605_2_alg».proof.Proof.Gen.KernelIdeal.Value

noncomputable section

namespace Cert.KernelIdeal.Attn

open Cert.KernelIdeal Cert.KernelIdeal.Gen Cert.KernelIdeal.Pieces Cert.KernelIdeal.BlockStep
open Idealize.ShloMosaic Idealize.ShloMosaic.TcCoe Idealize.SL.Sem Idealize.ShloMosaic.ValueIdx
open Idealize.ShloMosaic.Pipeline (Dat)
open Cert.Attn.Online

variable (m : (ℓ : Loc nD τ sig) → Buf (Elt Ideal) ℓ) (ρ : Dev nD → PrngReg)

/-- The result array: the quotient at every entry. -/
def result (c : Dev nD) : S16x64x768.Idx → EReal := fun i => attn m c (i 0) (i 1) (i 2)

/-- A write-back writes its batch element's slab of the result. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, -, -, e0, e1, e2⟩ := idx_facts t
  have hN : t.val < 64 := lt_of_lt_of_eq t.isLt N_0
  rw [Cert.KernelIdeal.Value.flushed2]
  refine funext fun (y : S1x64x768.Idx) => ?_
  have hy0 : (y 0).val < 1 := (y 0).isLt
  have hy : (y : S1x64x768.Idx) = ix3 (0 : Fin 1) (y 1) (y 2) := by
    funext a
    match a with
    | ⟨0, _⟩ => exact Fin.ext (by show (y 0).val = 0; omega)
    | ⟨1, _⟩ => rfl
    | ⟨2, _⟩ => rfl
  show ((outsAt0 m c t.val t.isLt).1 y : EReal) = result m c (((cfg0.win 2).blk t).view.emb y)
  have i0 : ((cfg0.win 2).blk t).view.emb y 0 = bat t.val :=
    Fin.ext (by show win0_2.index t (0 : Fin 3) * 1 + 1 * (y 0).val = t.val / 4 % 16; omega)
  have i1 : ((cfg0.win 2).blk t).view.emb y 1 = y 1 :=
    Fin.ext (by show win0_2.index t (1 : Fin 3) * 64 + 1 * (y 1).val = (y 1).val; omega)
  have i2 : ((cfg0.win 2).blk t).view.emb y 2 = y 2 :=
    Fin.ext (by show win0_2.index t (2 : Fin 3) * 768 + 1 * (y 2).val = (y 2).val; omega)
  unfold result
  rw [i0, i1, i2]
  exact (congrArg (fun z => ((outsAt0 m c t.val t.isLt).1 z : EReal)) hy).trans (out_at m c t h3 (y 1) (y 2))

/-- Every entry of the result array is in the slab some write-back writes. -/
theorem cover (i : S16x64x768.Idx) :
    ∃ t : Fin cfg0.N, (cfg0.win 2).flush t = true ∧ i ∈ ((cfg0.win 2).blk t).view.set := by
  have hb : (i 0).val < 16 := (i 0).isLt
  have h1 : (i 1).val < 64 := (i 1).isLt
  have h2 : (i 2).val < 768 := (i 2).isLt
  have hlt : 4 * (i 0).val + 3 < cfg0.N := by rw [show cfg0.N = 64 from N_0]; omega
  refine ⟨⟨4 * (i 0).val + 3, hlt⟩, (flush0_2 _).mpr (by show (4 * (i 0).val + 3) % 4 = 3; omega), ?_⟩
  obtain ⟨-, -, -, -, -, -, e0, e1, e2⟩ := idx_facts ⟨4 * (i 0).val + 3, hlt⟩
  have e0' : win0_2.index ⟨4 * (i 0).val + 3, hlt⟩ (0 : Fin 3) = (i 0).val := by rw [e0]; show (4 * (i 0).val + 3) / 4 = _; omega
  show i ∈ ((View.whole main_v0).slice (win0_2.rect ⟨4 * (i 0).val + 3, hlt⟩)).set
  rw [View.set_slice_whole, Rect.mem_set_unit]
  intro a
  match a with
  | ⟨0, _⟩ =>
    show win0_2.index ⟨4 * (i 0).val + 3, hlt⟩ (0 : Fin 3) * 1 ≤ (i 0).val
      ∧ (i 0).val < win0_2.index ⟨4 * (i 0).val + 3, hlt⟩ (0 : Fin 3) * 1 + 1
    omega
  | ⟨1, _⟩ =>
    show win0_2.index ⟨4 * (i 0).val + 3, hlt⟩ (1 : Fin 3) * 64 ≤ (i 1).val
      ∧ (i 1).val < win0_2.index ⟨4 * (i 0).val + 3, hlt⟩ (1 : Fin 3) * 64 + 64
    omega
  | ⟨2, _⟩ =>
    show win0_2.index ⟨4 * (i 0).val + 3, hlt⟩ (2 : Fin 3) * 768 ≤ (i 2).val
      ∧ (i 2).val < win0_2.index ⟨4 * (i 0).val + 3, hlt⟩ (2 : Fin 3) * 768 + 768
    omega

/-- The result array after the run. -/
theorem final (c : Dev nD) : (dats m 0 c).arrAt 2 cfg0.N = result m c :=
  (dats m 0 c).arrAt_eq_of_cover 2 (result m c) (flushed_eq m c) (cover)

/-- The run: the result array holds the quotient at every entry, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Attn

end
-- ==== Proof.RefRow.lean ====
/-
  The reference's result read at an entry, on the extended reals.

  With `Q` the query array [16, 64, 768] and `X` the token array [16, 4096, 768], the scores of query row `p` of batch
  element `b` are `S n = (Σ_e Q(b,p,e) · X(b,n,e)) · c` over the 4096 tokens `n`; the row maximum is `M = max (-∞) (sup_n S n)`;
  the weights are `e^(S n - M)`, their sum (from zero) the denominator; and entry `(b, p, d)` of the result is
  `Σ_n (e^(S n - M) / Σ_n' e^(S n' - M)) · X(b,n,d)`. When every entry of `Q` and `X` is a real number this is the online
  recurrence's quotient after four blocks of 1024 tokens.
-/
import proofs.«154676_j15693810499605_2_alg».proof.Proof.Gen.ReferenceIdeal.Read
import proofs.«154676_j15693810499605_2_alg».proof.Proof.LibRowMax
import proofs.«154676_j15693810499605_2_alg».proof.Proof.SoftmaxRow

noncomputable section

open scoped BigOperators

namespace Cert.ReferenceIdeal.Softmax

open Cert.ReferenceIdeal Cert.ReferenceIdeal.Gen Cert.ReferenceIdeal.Read Idealize.ShloMosaic Idealize.ShloMosaic.ValueIdx
open Cert.Attn.Online Cert.Attn.RealLaw

theorem neg_inf : Ideal.ofBits .f32 0xFF800000#32 = ⊥ := by simp [Ideal.ofBits, Ideal.ieee]

variable (x0 : S16x4096x768.Idx → EReal) (x1 : S16x64x768.Idx → EReal)

/-- The scores of query row `p` of batch element `b` against its 4096 tokens. -/
def S (b : Fin 16) (p : Fin 64) (n : Fin 4096) : EReal :=
  (∑ e : Fin 768, x1 (ix3 b p e) * x0 (ix3 b n e)) * Ideal.ofBits .f32 0x3D13CD3A#32

/-- The row maximum as the reference takes it. -/
def M (b : Fin 16) (p : Fin 64) : EReal := max ⊥ (Finset.univ.sup fun n => S x0 x1 b p n)

theorem scores_at (b : Fin 16) (p : Fin 64) (n : Fin 4096) :
    val_main_v2 (F := Ideal) x0 x1 (ix3 b p n) = S x0 x1 b p n := by
  rw [val_main_v2_apply, val_main_v0_apply, val_main_v1_apply, val_main_cst_apply]
  show (∑ k : Fin 768, x1 (lidx_main_v0 (ix3 b p n) k) * x0 (ridx_main_v0 (ix3 b p n) k)) * Ideal.ofBits .f32 0x3D13CD3A#32 = _
  refine congrArg (· * Ideal.ofBits .f32 0x3D13CD3A#32) (Finset.sum_congr rfl fun e _ => ?_)
  exact congrArg₂ (· * ·) (congrArg x1 (funext fun a => Fin.ext (by match a with | ⟨0, _⟩ => rfl | ⟨1, _⟩ => rfl | ⟨2, _⟩ => rfl))) (congrArg x0 (funext fun a => Fin.ext (by match a with | ⟨0, _⟩ => rfl | ⟨1, _⟩ => rfl | ⟨2, _⟩ => rfl)))

theorem max_at (b : Fin 16) (p : Fin 64) : val_main_v5 (F := Ideal) x0 x1 (ix2 b p) = M x0 x1 b p := by
  rw [val_main_v5_apply, val_main_v4_apply, val_main_cst_1_apply]
  show max (Ideal.ofBits .f32 0xFF800000#32) (val_main_v3 (F := Ideal) x0 x1 (ix2 b p)) = _
  rw [neg_inf]
  refine congrArg (max ⊥) ?_
  unfold val_main_v3
  have hR : S16x64x4096.Reduces [(2 : Fin 3)] S16x64 := by decide
  refine (LibRowMax.hostReduce_maximumf_single (s := S16x64x4096) (t := S16x64) (u := S_) (a := (2 : Fin 3)) _ _ _ hR _ (ix2 b p)).trans ?_
  show (Finset.univ : Finset (Fin 4096)).fold max (Ideal.ofBits .f32 0xFF800000#32) _ = _
  rw [neg_inf]
  refine (fold_max_bot (Finset.univ : Finset (Fin 4096)) _).trans ?_
  refine congrArg (Finset.univ : Finset (Fin 4096)).sup (funext fun n => ?_)
  exact (congrArg (val_main_v2 (F := Ideal) x0 x1) (funext fun a => Fin.ext (by match a with | ⟨0, _⟩ => rfl | ⟨1, _⟩ => rfl | ⟨2, _⟩ => rfl))).trans (scores_at x0 x1 b p n)

theorem weights_at (b : Fin 16) (p : Fin 64) (n : Fin 4096) :
    val_main_v9 (F := Ideal) x0 x1 (ix3 b p n) = Ideal.exp (S x0 x1 b p n - M x0 x1 b p) := by
  rw [val_main_v9_apply, val_main_v8_apply, val_main_v7_apply, val_main_v6_apply, scores_at,
    show idx_main_v6 (idx_main_v7 (ix3 b p n)) = ix2 b p from funext fun a => Fin.ext (by match a with | ⟨0, _⟩ => rfl | ⟨1, _⟩ => rfl), max_at]
  rfl

theorem den_at (b : Fin 16) (p : Fin 64) :
    val_main_v10 (F := Ideal) x0 x1 (ix2 b p) = 0 + ∑ n, Ideal.exp (S x0 x1 b p n - M x0 x1 b p) := by
  rw [val_main_v10_apply, val_main_cst_2_apply]
  show Ideal.ofBits .f32 0x00000000#32 + _ = _
  rw [Ideal.ofBits_zero_f32]
  refine congrArg (0 + ·) (Finset.sum_congr rfl fun n _ => ?_)
  exact (congrArg (val_main_v9 (F := Ideal) x0 x1) (funext fun a => Fin.ext (by match a with | ⟨0, _⟩ => rfl | ⟨1, _⟩ => rfl | ⟨2, _⟩ => rfl))).trans (weights_at x0 x1 b p n)

/-- The reference's result at entry `(b, p, d)`. -/
theorem result_at (b : Fin 16) (p : Fin 64) (d : Fin 768) :
    val_main_v14 (F := Ideal) x0 x1 (ix3 b p d)
      = ∑ n, Ideal.div (Ideal.exp (S x0 x1 b p n - M x0 x1 b p)) (0 + ∑ n', Ideal.exp (S x0 x1 b p n' - M x0 x1 b p))
          * x0 (ix3 b n d) := by
  rw [val_main_v14_apply]
  refine Finset.sum_congr rfl fun n _ => ?_
  refine congrArg₂ (· * ·) ?_ (congrArg x0 (funext fun a => Fin.ext (by match a with | ⟨0, _⟩ => rfl | ⟨1, _⟩ => rfl | ⟨2, _⟩ => rfl)))
  rw [show lidx_main_v14 (ix3 b p d) n = ix3 b p n from funext fun a => Fin.ext (by match a with | ⟨0, _⟩ => rfl | ⟨1, _⟩ => rfl | ⟨2, _⟩ => rfl), val_main_v13_apply, weights_at, val_main_v12_apply,
    val_main_v11_apply, show idx_main_v11 (idx_main_v12 (ix3 b p n)) = ix2 b p from funext fun a => Fin.ext (by match a with | ⟨0, _⟩ => rfl | ⟨1, _⟩ => rfl), den_at]
  rfl

theorem scale_real : IsReal (Ideal.ofBits .f32 0x3D13CD3A#32) := by
  unfold IsReal
  simp [Ideal.ofBits, Ideal.ieee, -EReal.coe_mul]

/-- Over real inputs the reference's entry is the online recurrence's quotient after four blocks. -/
theorem result_eq_online (hx : ∀ i, IsReal (x0 i)) (hq : ∀ i, IsReal (x1 i)) (b : Fin 16) (p : Fin 64) (d : Fin 768) :
    val_main_v14 (F := Ideal) x0 x1 (ix3 b p d)
      = Ideal.div (runA (fun k j => S x0 x1 b p (flat k j)) (fun k j => x0 (ix3 b (flat k j) d)) 4)
          (runL (fun k j => S x0 x1 b p (flat k j)) 4) := by
  have hS : ∀ n, IsReal (S x0 x1 b p n) := fun n =>
    isReal_mul (isReal_sum_mul (fun e => hq _) (fun e => hx _)) scale_real
  choose S' hS' using hS
  choose X' hX' using fun n : Fin 4096 => hx (ix3 b n d)
  rw [result_at]
  unfold M
  simp only [hS', hX']
  exact (online_eq_softmax S' X').symm

end Cert.ReferenceIdeal.Softmax

end
-- ==== Proof.Finite.lean ====
/-
  Finite inputs are real numbers.

  The precondition states, for each of the two input arrays, that every entry `x` satisfies `|x| < +∞`, the conjunction of
  all those comparisons being true. On the extended reals `|x| = max x (-x)`, which is `+∞` exactly at the two infinities:
  so every entry of both arrays is the image of a real number.
-/
import proofs.«154676_j15693810499605_2_alg».proof.Proof.Gen.Pre_finite_inputs
import proofs.«154676_j15693810499605_2_alg».proof.Proof.LibRealLaw
import Idealize.ShloMosaic.Lib.ReduceAll
import Idealize.ShloMosaic.Lib.ValueIdx
import Idealize.ShloMosaic.PureOps.Ideal.Laws

noncomputable section

namespace Cert.Attn.Finite

open Idealize.ShloMosaic Cert.Attn.RealLaw Cert.Pre_finite_inputs

theorem pos_inf : Ideal.ofBits .f32 0x7F800000#32 = ⊤ := by simp [Ideal.ofBits, Ideal.ieee]

/-- An extended real whose absolute value is below `+∞` is a real number. -/
theorem isReal_of_abs_lt (x : EReal) (h : Ideal.cmp .olt (max x (-x)) ⊤ = 1#1) : IsReal x := by
  induction x using EReal.rec with
  | bot => simp [Ideal.cmp] at h
  | coe r => exact ⟨r, rfl⟩
  | top => simp [Ideal.cmp] at h

instance : Subsingleton S_.Idx := ⟨fun a b => funext fun d => d.elim0⟩

/-- Under the precondition every entry of both input arrays is a real number. -/
theorem real_of_pre [Facts] (X : FVec Ideal S16x4096x768 .f32) (Q : FVec Ideal S16x64x768 .f32)
    (h : fn (F := Ideal) X Q = fun _ => 1#1) : (∀ i, IsReal (X i)) ∧ (∀ i, IsReal (Q i)) := by
  have h0 := congrFun h ValueIdx.ix0
  dsimp only [fn] at h0
  obtain ⟨hx, hq⟩ := IntOp.andi_eq_one.1 h0
  refine ⟨fun i => ?_, fun i => ?_⟩
  · have e : Ideal.cmp .olt (max (X i) (-(X i))) (Ideal.ofBits .f32 0x7F800000#32) = 1#1 :=
      Host.reduce_andi_all _ _ _ _ _ hx i
    rw [pos_inf] at e
    exact isReal_of_abs_lt _ e
  · have e : Ideal.cmp .olt (max (Q i) (-(Q i))) (Ideal.ofBits .f32 0x7F800000#32) = 1#1 :=
      Host.reduce_andi_all _ _ _ _ _ hq i
    rw [pos_inf] at e
    exact isReal_of_abs_lt _ e

end Cert.Attn.Finite

end
-- ==== Proof.lean ====
/-
  The certificate of a cross-attention kernel against its reference.

  The kernel computes softmax((q · tokensᵀ) · c) · tokens for 16 batch elements, 64 query rows, 4096 tokens and 768
  features, streaming the tokens of a batch element through four blocks of 1024 and keeping, per query row, the running
  maximum, the running denominator and the running numerator of the online softmax recurrence; the last block of a
  batch element writes numerator over denominator. The reference forms all 4096 scores of a row, subtracts their
  maximum, exponentiates, divides by the sum and multiplies with the tokens.

  On the extended reals, with finite inputs, the two agree entry by entry: every score is a real number, the
  recurrence's state after a block is the closed form over the blocks seen (rescaling by e^(m - m') is exact on reals
  and distributes over a finite real sum; at the first block the factor multiplies zero), and the final quotient by
  the positive real denominator distributes over the sum of the weighted tokens. Changes of float format are the
  identity, and a matrix product, a lane sum and a lane maximum are the plain sum and supremum.

  The three frames are the generated ones (the reference's is its run with the result dropped); no operation of the
  kernel was rewritten for the idealization, so that conjunct is trivial.
-/
import proofs.«154676_j15693810499605_2_alg».proof.Defs
import proofs.«154676_j15693810499605_2_alg».proof.Proof.Gen.Kernel
import proofs.«154676_j15693810499605_2_alg».proof.Proof.Gen.Kernel.Frame
import proofs.«154676_j15693810499605_2_alg».proof.Proof.Gen.KernelIdeal
import proofs.«154676_j15693810499605_2_alg».proof.Proof.Gen.KernelIdeal.Frame
import proofs.«154676_j15693810499605_2_alg».proof.Proof.Gen.KernelIdeal.Value
import proofs.«154676_j15693810499605_2_alg».proof.Proof.Gen.ReferenceIdeal
import proofs.«154676_j15693810499605_2_alg».proof.Proof.Gen.ReferenceIdeal.Run
import proofs.«154676_j15693810499605_2_alg».proof.Proof.Gen.ReferenceIdeal.Read
import proofs.«154676_j15693810499605_2_alg».proof.Proof.Gen.Pre_finite_inputs
import proofs.«154676_j15693810499605_2_alg».proof.Proof.ResultArray
import proofs.«154676_j15693810499605_2_alg».proof.Proof.RefRow
import proofs.«154676_j15693810499605_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array holds the recurrence's quotient at every entry; the reference's result, on arguments
    that agree and are finite, is the same quotient. -/
theorem algebraic : Cert.algebraic_KernelIdeal_ReferenceIdeal := by
  intro m ρ m' ρ' hpre hagree
  refine ⟨fun c => Cert.KernelIdeal.Attn.result m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  obtain ⟨hx, hq⟩ := Cert.Attn.Finite.real_of_pre _ _ (hpre c)
  funext i
  obtain ⟨b, p, d, rfl⟩ : ∃ (b : Fin 16) (p : Fin 64) (d : Fin 768), i = ix3 b p d := ⟨i 0, i 1, i 2, eq_ix3 i⟩
  rw [Cert.ReferenceIdeal.Softmax.result_eq_online _ _ hx hq b p d]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
